-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S2x800000 : Shape := ⟨2, ![2, 800000]⟩
abbrev S2x50000 : Shape := ⟨2, ![2, 50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S64x64 .f32) (main_arg8 : FVec F S64 .f32) (main_arg9 : FVec F S64x1 .f32) (main_arg10 : FVec F S1 .f32) (main_arg11 : FVec F S64x1 .f32) (main_arg12 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg9
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) (main_arg11 : FVec F S64x1 .f32) (main_arg12 : FVec F S1 .f32) (main_arg13 : IVec S2x800000 32) (main_arg14 : IVec S2x50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_v13 main_v16
-- ==== Kernel.lean ====
abbrev S50000x64 : Shape := ⟨2, ![50000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S2x800000 : Shape := ⟨2, ![2, 800000]⟩
abbrev S2x50000 : Shape := ⟨2, ![2, 50000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S5000x64 : Shape := ⟨2, ![5000, 64]⟩
abbrev S1x64 : Shape := ⟨2, ![1, 64]⟩
abbrev S5000x1 : Shape := ⟨2, ![5000, 1]⟩
abbrev S1x1 : Shape := ⟨2, ![1, 1]⟩

abbrev nBuf : Space → Nat
  | .hbm => 82
  | .vmem => 30
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S64x1, .f32⟩
  | .hbm, ⟨12, _⟩ => ⟨S1, .f32⟩
  | .hbm, ⟨13, _⟩ => ⟨S2x800000, .i32⟩
  | .hbm, ⟨14, _⟩ => ⟨S2x50000, .i32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S50000x1, .f32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S50000x1, .f32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S50000x1, .f32⟩
  | .hbm, ⟨79, _⟩ => ⟨S50000x64, .f32⟩
  | .hbm, ⟨80, _⟩ => ⟨S50000x64, .f32⟩
  | .hbm, ⟨81, _⟩ => ⟨S50000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x1, .f32⟩
  | .local _ .vmem, ⟨25, _⟩ => ⟨S1, .f32⟩
  | .local _ .vmem, ⟨26, _⟩ => ⟨S64x1, .f32⟩
  | .local _ .vmem, ⟨27, _⟩ => ⟨S1, .f32⟩
  | .local _ .vmem, ⟨28, _⟩ => ⟨S5000x1, .f32⟩
  | .local _ .vmem, ⟨29, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_c_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1.size a ≤ S1.size a
  hwx2_3 : ∀ i : grid2.Coords, EltTy.bits .f32 = 32 ∨ (Rect.block (s := S1) S1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1.size a ≤ S1.size a
  hwx2_5 : ∀ i : grid2.Coords, EltTy.bits .f32 = 32 ∨ (Rect.block (s := S1) S1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S50000x1.size a
  hwx2_6 : ∀ i : grid2.Coords, EltTy.bits .f32 = 32 ∨ (Rect.block (s := S50000x1) S5000x1.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S5000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S2x800000 : Shape := ⟨2, ![2, 800000]⟩
abbrev S2x50000 : Shape := ⟨2, ![2, 50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S50000x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S64x1, .f32⟩
  | 12 => ⟨S1, .f32⟩
  | 13 => ⟨S2x800000, .i32⟩
  | 14 => ⟨S2x50000, .i32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S_, .f32⟩
  | 29 => ⟨S50000x64, .f32⟩
  | 30 => ⟨S800000x1, .i32⟩
  | 31 => ⟨S50000x64, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x64, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S50000x64, .f32⟩
  | 49 => ⟨S50000x64, .f32⟩
  | 50 => ⟨S1x64, .f32⟩
  | 51 => ⟨S50000x64, .f32⟩
  | 52 => ⟨S50000x64, .f32⟩
  | 53 => ⟨S_, .f32⟩
  | 54 => ⟨S50000x64, .f32⟩
  | 55 => ⟨S50000x64, .f32⟩
  | 56 => ⟨S1x800000, .i32⟩
  | 57 => ⟨S800000, .i32⟩
  | 58 => ⟨S1x800000, .i32⟩
  | 59 => ⟨S800000, .i32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x64, .f32⟩
  | 69 => ⟨S_, .f32⟩
  | 70 => ⟨S50000x64, .f32⟩
  | 71 => ⟨S800000x1, .i32⟩
  | 72 => ⟨S50000x64, .f32⟩
  | 73 => ⟨S_, .f32⟩
  | 74 => ⟨S800000, .f32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S50000x1, .f32⟩
  | 83 => ⟨S50000x64, .f32⟩
  | 84 => ⟨S50000x64, .f32⟩
  | 85 => ⟨S50000x64, .f32⟩
  | 86 => ⟨S1x64, .f32⟩
  | 87 => ⟨S50000x64, .f32⟩
  | 88 => ⟨S50000x64, .f32⟩
  | 89 => ⟨S50000x64, .f32⟩
  | 90 => ⟨S50000x64, .f32⟩
  | 91 => ⟨S1x64, .f32⟩
  | 92 => ⟨S50000x64, .f32⟩
  | 93 => ⟨S50000x64, .f32⟩
  | 94 => ⟨S_, .f32⟩
  | 95 => ⟨S50000x64, .f32⟩
  | 96 => ⟨S50000x64, .f32⟩
  | 97 => ⟨S1x800000, .i32⟩
  | 98 => ⟨S800000, .i32⟩
  | 99 => ⟨S1x800000, .i32⟩
  | 100 => ⟨S800000, .i32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x64, .f32⟩
  | 110 => ⟨S_, .f32⟩
  | 111 => ⟨S50000x64, .f32⟩
  | 112 => ⟨S800000x1, .i32⟩
  | 113 => ⟨S50000x64, .f32⟩
  | 114 => ⟨S_, .f32⟩
  | 115 => ⟨S800000, .f32⟩
  | 116 => ⟨S_, .f32⟩
  | 117 => ⟨S50000, .f32⟩
  | 118 => ⟨S800000x1, .i32⟩
  | 119 => ⟨S50000, .f32⟩
  | 120 => ⟨S_, .f32⟩
  | 121 => ⟨S50000, .f32⟩
  | 122 => ⟨S50000, .f32⟩
  | 123 => ⟨S50000x1, .f32⟩
  | 124 => ⟨S50000x64, .f32⟩
  | 125 => ⟨S50000x64, .f32⟩
  | 126 => ⟨S50000x1, .f32⟩
  | 127 => ⟨S1x1, .f32⟩
  | _ => ⟨S50000x64, .f32⟩

abbrev hbmTy0_1 (i : Nat) : BufTy := match i % 128 with
  | 0 => ⟨S50000x1, .f32⟩
  | 1 => ⟨S50000x1, .f32⟩
  | 2 => ⟨S50000x1, .f32⟩
  | 3 => ⟨S50000x1, .f32⟩
  | 4 => ⟨S1x1, .f32⟩
  | 5 => ⟨S50000x1, .f32⟩
  | 6 => ⟨S50000x1, .f32⟩
  | 7 => ⟨S_, .f32⟩
  | 8 => ⟨S50000x1, .f32⟩
  | 9 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call0_cst : Ref sig .tc := ⟨.hbm, 53, rfl⟩
abbrev main_call0_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_4 : Ref sig .tc := ⟨.hbm, 60, rfl⟩
abbrev main_v37 : Ref sig .tc := ⟨.hbm, 61, rfl⟩
abbrev main_v38 : Ref sig .tc := ⟨.hbm, 62, rfl⟩
abbrev main_c_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call1_cst : Ref sig .tc := ⟨.hbm, 94, rfl⟩
abbrev main_call1_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_10 : Ref sig .tc := ⟨.hbm, 101, rfl⟩
abbrev main_v70 : Ref sig .tc := ⟨.hbm, 102, rfl⟩
abbrev main_v71 : Ref sig .tc := ⟨.hbm, 103, rfl⟩
abbrev main_c_11 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_12 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_13 : Ref sig .tc := ⟨.hbm, 114, rfl⟩
abbrev main_v80 : Ref sig .tc := ⟨.hbm, 115, rfl⟩
abbrev main_cst_14 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_call2_cst : Ref sig .tc := ⟨.hbm, 135, rfl⟩
abbrev main_call2_v0 : Ref sig .tc := ⟨.hbm, 136, rfl⟩
abbrev main_v98 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized kernel program's run with its returned array named.

  The program is six segments: three stretches of host operations and three kernels.  The launch theorem for such a
  program gives, for every weakly fair execution, termination without a fault and a final memory that holds, in every
  buffer that outlives the kernels, the contents the last segment leaves there.  Read at the argument arrays that is
  their launch contents (nothing writes them); read at the returned buffer it is what the third kernel's exit leaves
  in it.
-/
import proofs.«156512_j56410100465947_1_alg».proof.Proof.PatchedKernelIdealFrame

set_option maxRecDepth 16384

noncomputable section

namespace Cert.Sage.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the returned buffer at the contents the
    last kernel's exit leaves in it and every argument array as launched: the launch theorem for a program of several
    kernels among host stretches, applied to the program's segments, the final thread state read against the final
    memory at the returned buffer as well as at the arguments. -/
theorem run_value : θ_run defs (onTc (τ := τ) (main (F := F))) ⟨m, fun _ => 0, ρ⟩ (fun r => ∀ c : Dev nD,
      r.2.mem ((c.tc : Thread nD τ).loc main_v53) = W6 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v53 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.Sage.Run

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.SageAlgebra.lean ====
/-
  The arithmetic of one GraphSAGE stage on the extended reals, for any sizes.

  * `denseAt` / `dense`: the dense stage as one function of whole arrays, entry by entry:
    out[r, c] = max (((Σ_k mean[r,k]·Wl[k,c] + Σ_k h[r,k]·Ws[k,c]) + bl[c]) + bs[c]) 0.
  * `add_bias_comm`: the two groupings of the four summands agree (addition on the extended reals is
    commutative and associative, infinities included).
  * `mul_inv_eq_div`: for a divisor that is not zero, multiplying by the reciprocal 1 / y is dividing by y,
    at the infinities too; a divisor max c 1 is never zero.
-/
import Idealize.ShloMosaic.PureOps.Ideal.Laws
import Idealize.ShloMosaic.Lib.ValueIdx

noncomputable section

namespace Cert.Sage

open Idealize.ShloMosaic Idealize.ShloMosaic.ValueIdx

/-- One entry of the dense stage: row `r` of the neighbourhood mean against column `c` of `Wl`, plus row `r` of
    the node features against column `c` of `Ws`, plus the two biases, clipped below at zero. -/
def denseAt {n K d : Nat} (mean h : (⟨2, ![n, K]⟩ : Shape).Idx → EReal) (Wl : (⟨2, ![K, d]⟩ : Shape).Idx → EReal)
    (bl : (⟨1, ![d]⟩ : Shape).Idx → EReal) (Ws : (⟨2, ![K, d]⟩ : Shape).Idx → EReal) (bs : (⟨1, ![d]⟩ : Shape).Idx → EReal)
    (r : Fin n) (c : Fin d) : EReal :=
  max ((((∑ k : Fin K, mean (ix2 r k) * Wl (ix2 k c)) + ∑ k : Fin K, h (ix2 r k) * Ws (ix2 k c)) + bl (ix1 c)) + bs (ix1 c)) 0

/-- The dense stage as a whole array. -/
def dense {n K d : Nat} (mean h : (⟨2, ![n, K]⟩ : Shape).Idx → EReal) (Wl : (⟨2, ![K, d]⟩ : Shape).Idx → EReal)
    (bl : (⟨1, ![d]⟩ : Shape).Idx → EReal) (Ws : (⟨2, ![K, d]⟩ : Shape).Idx → EReal) (bs : (⟨1, ![d]⟩ : Shape).Idx → EReal) :
    (⟨2, ![n, d]⟩ : Shape).Idx → EReal :=
  fun j => denseAt mean h Wl bl Ws bs (j 0) (j 1)

theorem dense_ix2 {n K d : Nat} (mean h : (⟨2, ![n, K]⟩ : Shape).Idx → EReal) (Wl : (⟨2, ![K, d]⟩ : Shape).Idx → EReal)
    (bl : (⟨1, ![d]⟩ : Shape).Idx → EReal) (Ws : (⟨2, ![K, d]⟩ : Shape).Idx → EReal) (bs : (⟨1, ![d]⟩ : Shape).Idx → EReal)
    (r : Fin n) (c : Fin d) : dense mean h Wl bl Ws bs (ix2 r c) = denseAt mean h Wl bl Ws bs r c := rfl

/-- An entry of the dense stage depends only on one row of the mean and of the features, one column of each weight
    matrix and one entry of each bias: two stages that agree there agree at the entry (the row counts may differ: a block
    of rows against the whole array). -/
theorem denseAt_congr {n n' K d d' : Nat}
    (mean h : (⟨2, ![n, K]⟩ : Shape).Idx → EReal) (Wl : (⟨2, ![K, d]⟩ : Shape).Idx → EReal) (bl : (⟨1, ![d]⟩ : Shape).Idx → EReal)
    (Ws : (⟨2, ![K, d]⟩ : Shape).Idx → EReal) (bs : (⟨1, ![d]⟩ : Shape).Idx → EReal)
    (mean' h' : (⟨2, ![n', K]⟩ : Shape).Idx → EReal) (Wl' : (⟨2, ![K, d']⟩ : Shape).Idx → EReal) (bl' : (⟨1, ![d']⟩ : Shape).Idx → EReal)
    (Ws' : (⟨2, ![K, d']⟩ : Shape).Idx → EReal) (bs' : (⟨1, ![d']⟩ : Shape).Idx → EReal)
    (r : Fin n) (c : Fin d) (r' : Fin n') (c' : Fin d')
    (hm : ∀ k, mean (ix2 r k) = mean' (ix2 r' k)) (hh : ∀ k, h (ix2 r k) = h' (ix2 r' k))
    (hWl : ∀ k, Wl (ix2 k c) = Wl' (ix2 k c')) (hWs : ∀ k, Ws (ix2 k c) = Ws' (ix2 k c'))
    (hbl : bl (ix1 c) = bl' (ix1 c')) (hbs : bs (ix1 c) = bs' (ix1 c')) :
    denseAt mean h Wl bl Ws bs r c = denseAt mean' h' Wl' bl' Ws' bs' r' c' := by
  unfold denseAt
  simp only [hm, hh, hWl, hWs, hbl, hbs]

/-- The two groupings of the four summands: ((A + bl) + B) + bs = ((A + B) + bl) + bs. -/
theorem add_bias_comm (A B bl bs : EReal) : ((A + bl) + B) + bs = ((A + B) + bl) + bs := by
  rw [add_right_comm A bl B]

/-- The word of 1.0 denotes the real number one. -/
theorem ofBits_one_f32 : Ideal.ofBits .f32 0x3F800000#32 = 1 := by
  simp [Ideal.ofBits, Ideal.ieee]
  norm_cast
  norm_num

/-- For a divisor that is not zero, the product with its reciprocal is the quotient. -/
theorem mul_inv_eq_div (a y : EReal) (hy : y ≠ 0) : a * Ideal.div 1 y = Ideal.div a y := by
  unfold Ideal.div
  rw [if_neg hy, if_neg hy, one_mul]

/-- A maximum with one is not zero. -/
theorem max_one_ne_zero (c : EReal) : max c 1 ≠ 0 := by
  have h : (0 : EReal) < max c 1 := lt_of_lt_of_le zero_lt_one (le_max_right c 1)
  exact ne_of_gt h

end Cert.Sage

end
-- ==== Proof.KernelBody.lean ====
/-
  The body of each of the three dense kernels, read at one entry of its output block.

  A grid point holds a block of 5000 rows of the neighbourhood mean and of the node features, the two weight
  matrices and the two bias rows.  Its one store writes, at entry (p, q) of the block,
  max (((Σ_k mean[p,k]·Wl[k,q] + Σ_k h[p,k]·Ws[k,q]) + bl[q]) + bs[q]) 0: the two matrix products start from
  the zero accumulator, the narrowing of the operands to bf16 is the identity on the extended reals, and each
  bias row is laid along the rows of the block.
-/
import proofs.«156512_j56410100465947_1_alg».proof.Proof.Gen.KernelIdeal.Skeleton
import proofs.«156512_j56410100465947_1_alg».proof.Proof.LibSplitContraction
import proofs.«156512_j56410100465947_1_alg».proof.Proof.SageAlgebra
import Idealize.ShloMosaic.Lib.ValueLayout
import Idealize.ShloMosaic.Lib.Pipeline.Value

noncomputable section

namespace Cert.Sage.Body

open Cert.KernelIdeal Cert.KernelIdeal.Gen Idealize.ShloMosaic Idealize.ShloMosaic.ValueIdx

/-! ## The coordinates of the operands' indices in the two contraction records -/

theorem wide_l0 (j : S5000x64.Idx) (q : dot_S5000x64_S64x64_S5000x64_1_0_0_1_n_n.contr.Idx) : (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem wide_l1 (j : S5000x64.Idx) (q : dot_S5000x64_S64x64_S5000x64_1_0_0_1_n_n.contr.Idx) : (dot_S5000x64_S64x64_S5000x64_1_0_0_1_n_n.lhsIdx j q 1).val = (q ⟨0, by decide⟩).val :=
  dot_S5000x64_S64x64_S5000x64_1_0_0_1_n_n.lhsIdx_val_of_single rfl j q
theorem wide_r0 (j : S5000x64.Idx) (q : dot_S5000x64_S64x64_S5000x64_1_0_0_1_n_n.contr.Idx) : (dot_S5000x64_S64x64_S5000x64_1_0_0_1_n_n.rhsIdx j q 0).val = (q ⟨0, by decide⟩).val :=
  dot_S5000x64_S64x64_S5000x64_1_0_0_1_n_n.rhsIdx_val_of_single rfl j q
theorem wide_r1 (j : S5000x64.Idx) (q : dot_S5000x64_S64x64_S5000x64_1_0_0_1_n_n.contr.Idx) : (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem narrow_l0 (j : S5000x1.Idx) (q : dot_S5000x64_S64x1_S5000x1_1_0_0_1_n_n.contr.Idx) : (dot_S5000x64_S64x1_S5000x1_1_0_0_1_n_n.lhsIdx j q 0).val = (j 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem narrow_l1 (j : S5000x1.Idx) (q : dot_S5000x64_S64x1_S5000x1_1_0_0_1_n_n.contr.Idx) : (dot_S5000x64_S64x1_S5000x1_1_0_0_1_n_n.lhsIdx j q 1).val = (q ⟨0, by decide⟩).val :=
  dot_S5000x64_S64x1_S5000x1_1_0_0_1_n_n.lhsIdx_val_of_single rfl j q
theorem narrow_r0 (j : S5000x1.Idx) (q : dot_S5000x64_S64x1_S5000x1_1_0_0_1_n_n.contr.Idx) : (dot_S5000x64_S64x1_S5000x1_1_0_0_1_n_n.rhsIdx j q 0).val = (q ⟨0, by decide⟩).val :=
  dot_S5000x64_S64x1_S5000x1_1_0_0_1_n_n.rhsIdx_val_of_single rfl j q
theorem narrow_r1 (j : S5000x1.Idx) (q : dot_S5000x64_S64x1_S5000x1_1_0_0_1_n_n.contr.Idx) : (dot_S5000x64_S64x1_S5000x1_1_0_0_1_n_n.rhsIdx j q 1).val = (j 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The zero word is the real number zero, as the scalar the body clips against. -/
theorem scalar_zero : (Scalar.ofBits (F := Ideal) .f32 0x00000000#32) = (0 : EReal) := Ideal.ofBits_zero_f32

/-! ## The three bodies -/

/-- The first kernel's store at entry (p, q). -/
theorem pay0_at (x0 x1 : Vec Ideal S5000x64 .f32) (wl ws : Vec Ideal S64x64 .f32) (bl bs : Vec Ideal S64 .f32)
    (p : Fin 5000) (q : Fin 64) :
    k0_pay1 (F := Ideal) x0 x1 wl ws bl bs (ix2 p q) = denseAt x0 x1 wl bl ws bs p q := by
  unfold k0_pay1 denseAt
  rw [maximumf_apply, addf_apply, addf_apply, addf_apply, broadcast_apply, scalar_zero]
  rw [broadcastTo_1b_ab_apply, broadcastTo_1b_ab_apply, shapeCast_a_1a_apply, shapeCast_a_1a_apply]
  simp only [Idealize.ShloMosaic.matmul]
  rw [Cert.Lib.SplitContraction.matmul_zero_at _ rfl rfl wide_l0 wide_l1 wide_r0 wide_r1,
    Cert.Lib.SplitContraction.matmul_zero_at _ rfl rfl wide_l0 wide_l1 wide_r0 wide_r1]
  simp only [truncf_apply, shapeCast_self]

/-- The second kernel's store at entry (p, q). -/
theorem pay1_at (x0 x1 : Vec Ideal S5000x64 .f32) (wl ws : Vec Ideal S64x64 .f32) (bl bs : Vec Ideal S64 .f32)
    (p : Fin 5000) (q : Fin 64) :
    k1_pay1 (F := Ideal) x0 x1 wl ws bl bs (ix2 p q) = denseAt x0 x1 wl bl ws bs p q := by
  unfold k1_pay1 denseAt
  rw [maximumf_apply, addf_apply, addf_apply, addf_apply, broadcast_apply, scalar_zero]
  rw [broadcastTo_1b_ab_apply, broadcastTo_1b_ab_apply, shapeCast_a_1a_apply, shapeCast_a_1a_apply]
  simp only [Idealize.ShloMosaic.matmul]
  rw [Cert.Lib.SplitContraction.matmul_zero_at _ rfl rfl wide_l0 wide_l1 wide_r0 wide_r1,
    Cert.Lib.SplitContraction.matmul_zero_at _ rfl rfl wide_l0 wide_l1 wide_r0 wide_r1]
  simp only [truncf_apply, shapeCast_self]

/-- The third kernel's store at entry (p, q). -/
theorem pay2_at (x0 x1 : Vec Ideal S5000x64 .f32) (wl ws : Vec Ideal S64x1 .f32) (bl bs : Vec Ideal S1 .f32)
    (p : Fin 5000) (q : Fin 1) :
    k2_pay1 (F := Ideal) x0 x1 wl ws bl bs (ix2 p q) = denseAt x0 x1 wl bl ws bs p q := by
  unfold k2_pay1 denseAt
  rw [maximumf_apply, addf_apply, addf_apply, addf_apply, broadcast_apply, scalar_zero]
  rw [broadcastTo_1b_ab_apply, broadcastTo_1b_ab_apply, shapeCast_a_1a_apply, shapeCast_a_1a_apply]
  simp only [Idealize.ShloMosaic.matmul]
  rw [Cert.Lib.SplitContraction.matmul_zero_at _ rfl rfl narrow_l0 narrow_l1 narrow_r0 narrow_r1,
    Cert.Lib.SplitContraction.matmul_zero_at _ rfl rfl narrow_l0 narrow_l1 narrow_r0 narrow_r1]
  simp only [truncf_apply, shapeCast_self]

end Cert.Sage.Body

end
-- ==== Proof.KernelRegion0.lean ====
/-
  The first dense kernel as one function of whole arrays.

  The grid has ten points; point t holds rows 5000·t … 5000·t + 4999 of the neighbourhood mean and of the node
  features, the whole of the two weight matrices and bias rows, and writes rows 5000·t … 5000·t + 4999 of the
  result.  Entry (p, q) of what it writes is the dense stage's entry (5000·t + p, q) of the whole arrays, because
  that entry reads one row of the two row-blocked operands and one column of the weights.  The ten blocks tile the
  result array, so after the last point the array is the dense stage of the arrays the kernel was entered with.
-/
import proofs.«156512_j56410100465947_1_alg».proof.Proof.PatchedKernelIdealFrame
import proofs.«156512_j56410100465947_1_alg».proof.Proof.KernelBody
import Idealize.ShloMosaic.Lib.Pipeline.Value

set_option maxRecDepth 16384

noncomputable section

namespace Cert.Sage.Region0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked operands and the result move with the point along
    the rows; the weights and biases stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The dense stage of the arrays the kernel is entered with. -/
def whole (c : Dev nD) : S50000x64.Idx → EReal :=
  dense (n := 50000) (K := 64) (d := 64) (V c main_v24) (V c main_arg0) (V c main_arg1) (V c main_arg2) (V c main_arg3) (V c main_arg4)

/-- What point `t` writes back is block `t` of the dense stage of the whole arrays. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero hz2]
  simp only [View.ld_unit_zero (S := S5000x64) hz2, View.ld_unit_zero (S := S64x64) hz2, View.ld_unit_zero (S := S64) hz1]
  obtain ⟨e00, e01, e10, e11, e20, e21, e30, e40, e41, e50, e60, e61⟩ := idx_facts t
  have ht : t.val < 10 := t.isLt
  funext j
  obtain ⟨p, q, rfl⟩ : ∃ (p : Fin 5000) (q : Fin 64), j = ix2 p q := ⟨j 0, j 1, eq_ix2 j⟩
  have hp : p.val < 5000 := p.isLt
  have hq : q.val < 64 := q.isLt
  show k0_pay1 (F := Ideal) (iblk0 V c 0 t) (iblk0 V c 1 t) (iblk0 V c 2 t) (iblk0 V c 4 t) (iblk0 V c 3 t) (iblk0 V c 5 t) (ix2 p q)
      = whole V c (((cfg0.win 6).blk t).view.emb (ix2 p q))
  refine (Body.pay0_at _ _ _ _ _ _ p q).trans ?_
  have hemb : ((cfg0.win 6).blk t).view.emb (ix2 p q) = ix2 (⟨t.val * 5000 + p.val, by omega⟩ : Fin 50000) q :=
    funext fun a => Fin.ext (by
      match a with
      | ⟨0, _⟩ => show win0_6.index t (0 : Fin 2) * 5000 + 1 * p.val = t.val * 5000 + p.val; omega
      | ⟨1, _⟩ => show win0_6.index t (1 : Fin 2) * 64 + 1 * q.val = q.val; omega)
  rw [hemb]
  unfold whole
  rw [dense_ix2]
  refine denseAt_congr _ _ _ _ _ _ _ _ _ _ _ _ p q _ q ?_ ?_ ?_ ?_ ?_ ?_
  · intro k
    have hk : k.val < 64 := k.isLt
    show V c main_v24 (((cfg0.win 0).blk t).view.emb (ix2 p k)) = V c main_v24 (ix2 (⟨t.val * 5000 + p.val, by omega⟩ : Fin 50000) k)
    exact congrArg (V c main_v24) (funext fun a => Fin.ext (by
      match a with
      | ⟨0, _⟩ => show win0_0.index t (0 : Fin 2) * 5000 + 1 * p.val = t.val * 5000 + p.val; omega
      | ⟨1, _⟩ => show win0_0.index t (1 : Fin 2) * 64 + 1 * k.val = k.val; omega))
  · intro k
    have hk : k.val < 64 := k.isLt
    show V c main_arg0 (((cfg0.win 1).blk t).view.emb (ix2 p k)) = V c main_arg0 (ix2 (⟨t.val * 5000 + p.val, by omega⟩ : Fin 50000) k)
    exact congrArg (V c main_arg0) (funext fun a => Fin.ext (by
      match a with
      | ⟨0, _⟩ => show win0_1.index t (0 : Fin 2) * 5000 + 1 * p.val = t.val * 5000 + p.val; omega
      | ⟨1, _⟩ => show win0_1.index t (1 : Fin 2) * 64 + 1 * k.val = k.val; omega))
  · intro k
    have hk : k.val < 64 := k.isLt
    show V c main_arg1 (((cfg0.win 2).blk t).view.emb (ix2 k q)) = V c main_arg1 (ix2 k q)
    exact congrArg (V c main_arg1) (funext fun a => Fin.ext (by
      match a with
      | ⟨0, _⟩ => show win0_2.index t (0 : Fin 2) * 64 + 1 * k.val = k.val; omega
      | ⟨1, _⟩ => show win0_2.index t (1 : Fin 2) * 64 + 1 * q.val = q.val; omega))
  · intro k
    have hk : k.val < 64 := k.isLt
    show V c main_arg3 (((cfg0.win 4).blk t).view.emb (ix2 k q)) = V c main_arg3 (ix2 k q)
    exact congrArg (V c main_arg3) (funext fun a => Fin.ext (by
      match a with
      | ⟨0, _⟩ => show win0_4.index t (0 : Fin 2) * 64 + 1 * k.val = k.val; omega
      | ⟨1, _⟩ => show win0_4.index t (1 : Fin 2) * 64 + 1 * q.val = q.val; omega))
  · show V c main_arg2 (((cfg0.win 3).blk t).view.emb (ix1 q)) = V c main_arg2 (ix1 q)
    exact congrArg (V c main_arg2) (funext fun a => Fin.ext (by
      match a with
      | ⟨0, _⟩ => show win0_3.index t (0 : Fin 1) * 64 + 1 * q.val = q.val; omega))
  · show V c main_arg4 (((cfg0.win 5).blk t).view.emb (ix1 q)) = V c main_arg4 (ix1 q)
    exact congrArg (V c main_arg4) (funext fun a => Fin.ext (by
      match a with
      | ⟨0, _⟩ => show win0_5.index t (0 : Fin 1) * 64 + 1 * q.val = q.val; omega))

/-- An index of the result array is in point `t`'s block iff each coordinate is in the block's range on its axis. -/
theorem mem_blk (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v25).slice (win0_6.rect t)).set ↔ _
  rw [View.set_slice_whole, Rect.mem_set_unit]
  exact Iff.rfl

/-- Every index of the result array is in the block of the point that holds its row: point ⌊row / 5000⌋. -/
theorem cover (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  let t : Fin cfg0.N := ⟨(i 0).val / 5000, by show (i 0).val / 5000 < 10; omega⟩
  obtain ⟨e00, e01, e10, e11, e20, e21, e30, e40, e41, e50, e60, e61⟩ := idx_facts t
  have htv : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- After the last point the result array is the dense stage of the arrays the kernel was entered with. -/
theorem final (c : Dev nD) : (dat0 V c).arrAt 6 cfg0.N = whole V c :=
  (dat0 V c).arrAt_eq_of_cover 6 (whole V c) (fun t _ => flushed_eq V c t) (cover)

end Cert.Sage.Region0

end
-- ==== Proof.KernelRegion1.lean ====
/-
  The second dense kernel as one function of whole arrays.

  The grid has ten points; point t holds rows 5000·t … 5000·t + 4999 of the neighbourhood mean and of the node
  features, the whole of the two weight matrices and bias rows, and writes rows 5000·t … 5000·t + 4999 of the
  result.  Entry (p, q) of what it writes is the dense stage's entry (5000·t + p, q) of the whole arrays, because
  that entry reads one row of the two row-blocked operands and one column of the weights.  The ten blocks tile the
  result array, so after the last point the array is the dense stage of the arrays the kernel was entered with.
-/
import proofs.«156512_j56410100465947_1_alg».proof.Proof.PatchedKernelIdealFrame
import proofs.«156512_j56410100465947_1_alg».proof.Proof.KernelBody
import Idealize.ShloMosaic.Lib.Pipeline.Value

set_option maxRecDepth 16384

noncomputable section

namespace Cert.Sage.Region1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked operands and the result move with the point along
    the rows; the weights and biases stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The dense stage of the arrays the kernel is entered with. -/
def whole (c : Dev nD) : S50000x64.Idx → EReal :=
  dense (n := 50000) (K := 64) (d := 64) (V c main_v38) (V c main_v25) (V c main_arg5) (V c main_arg6) (V c main_arg7) (V c main_arg8)

/-- What point `t` writes back is block `t` of the dense stage of the whole arrays. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S64x64) hz2, View.ld_unit_zero (S := S64) hz1]
  obtain ⟨e00, e01, e10, e11, e20, e21, e30, e40, e41, e50, e60, e61⟩ := idx_facts t
  have ht : t.val < 10 := t.isLt
  funext j
  obtain ⟨p, q, rfl⟩ : ∃ (p : Fin 5000) (q : Fin 64), j = ix2 p q := ⟨j 0, j 1, eq_ix2 j⟩
  have hp : p.val < 5000 := p.isLt
  have hq : q.val < 64 := q.isLt
  show k1_pay1 (F := Ideal) (iblk1 V c 0 t) (iblk1 V c 1 t) (iblk1 V c 2 t) (iblk1 V c 4 t) (iblk1 V c 3 t) (iblk1 V c 5 t) (ix2 p q)
      = whole V c (((cfg1.win 6).blk t).view.emb (ix2 p q))
  refine (Body.pay1_at _ _ _ _ _ _ p q).trans ?_
  have hemb : ((cfg1.win 6).blk t).view.emb (ix2 p q) = ix2 (⟨t.val * 5000 + p.val, by omega⟩ : Fin 50000) q :=
    funext fun a => Fin.ext (by
      match a with
      | ⟨0, _⟩ => show win1_6.index t (0 : Fin 2) * 5000 + 1 * p.val = t.val * 5000 + p.val; omega
      | ⟨1, _⟩ => show win1_6.index t (1 : Fin 2) * 64 + 1 * q.val = q.val; omega)
  rw [hemb]
  unfold whole
  rw [dense_ix2]
  refine denseAt_congr _ _ _ _ _ _ _ _ _ _ _ _ p q _ q ?_ ?_ ?_ ?_ ?_ ?_
  · intro k
    have hk : k.val < 64 := k.isLt
    show V c main_v38 (((cfg1.win 0).blk t).view.emb (ix2 p k)) = V c main_v38 (ix2 (⟨t.val * 5000 + p.val, by omega⟩ : Fin 50000) k)
    exact congrArg (V c main_v38) (funext fun a => Fin.ext (by
      match a with
      | ⟨0, _⟩ => show win1_0.index t (0 : Fin 2) * 5000 + 1 * p.val = t.val * 5000 + p.val; omega
      | ⟨1, _⟩ => show win1_0.index t (1 : Fin 2) * 64 + 1 * k.val = k.val; omega))
  · intro k
    have hk : k.val < 64 := k.isLt
    show V c main_v25 (((cfg1.win 1).blk t).view.emb (ix2 p k)) = V c main_v25 (ix2 (⟨t.val * 5000 + p.val, by omega⟩ : Fin 50000) k)
    exact congrArg (V c main_v25) (funext fun a => Fin.ext (by
      match a with
      | ⟨0, _⟩ => show win1_1.index t (0 : Fin 2) * 5000 + 1 * p.val = t.val * 5000 + p.val; omega
      | ⟨1, _⟩ => show win1_1.index t (1 : Fin 2) * 64 + 1 * k.val = k.val; omega))
  · intro k
    have hk : k.val < 64 := k.isLt
    show V c main_arg5 (((cfg1.win 2).blk t).view.emb (ix2 k q)) = V c main_arg5 (ix2 k q)
    exact congrArg (V c main_arg5) (funext fun a => Fin.ext (by
      match a with
      | ⟨0, _⟩ => show win1_2.index t (0 : Fin 2) * 64 + 1 * k.val = k.val; omega
      | ⟨1, _⟩ => show win1_2.index t (1 : Fin 2) * 64 + 1 * q.val = q.val; omega))
  · intro k
    have hk : k.val < 64 := k.isLt
    show V c main_arg7 (((cfg1.win 4).blk t).view.emb (ix2 k q)) = V c main_arg7 (ix2 k q)
    exact congrArg (V c main_arg7) (funext fun a => Fin.ext (by
      match a with
      | ⟨0, _⟩ => show win1_4.index t (0 : Fin 2) * 64 + 1 * k.val = k.val; omega
      | ⟨1, _⟩ => show win1_4.index t (1 : Fin 2) * 64 + 1 * q.val = q.val; omega))
  · show V c main_arg6 (((cfg1.win 3).blk t).view.emb (ix1 q)) = V c main_arg6 (ix1 q)
    exact congrArg (V c main_arg6) (funext fun a => Fin.ext (by
      match a with
      | ⟨0, _⟩ => show win1_3.index t (0 : Fin 1) * 64 + 1 * q.val = q.val; omega))
  · show V c main_arg8 (((cfg1.win 5).blk t).view.emb (ix1 q)) = V c main_arg8 (ix1 q)
    exact congrArg (V c main_arg8) (funext fun a => Fin.ext (by
      match a with
      | ⟨0, _⟩ => show win1_5.index t (0 : Fin 1) * 64 + 1 * q.val = q.val; omega))

/-- An index of the result array is in point `t`'s block iff each coordinate is in the block's range on its axis. -/
theorem mem_blk (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v39).slice (win1_6.rect t)).set ↔ _
  rw [View.set_slice_whole, Rect.mem_set_unit]
  exact Iff.rfl

/-- Every index of the result array is in the block of the point that holds its row: point ⌊row / 5000⌋. -/
theorem cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  let t : Fin cfg1.N := ⟨(i 0).val / 5000, by show (i 0).val / 5000 < 10; omega⟩
  obtain ⟨e00, e01, e10, e11, e20, e21, e30, e40, e41, e50, e60, e61⟩ := idx_facts t
  have htv : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- After the last point the result array is the dense stage of the arrays the kernel was entered with. -/
theorem final (c : Dev nD) : (dat1 V c).arrAt 6 cfg1.N = whole V c :=
  (dat1 V c).arrAt_eq_of_cover 6 (whole V c) (fun t _ => flushed_eq V c t) (cover)

end Cert.Sage.Region1

end
-- ==== Proof.KernelRegion2.lean ====
/-
  The third dense kernel as one function of whole arrays.

  The grid has ten points; point t holds rows 5000·t … 5000·t + 4999 of the neighbourhood mean and of the node
  features, the whole of the two weight matrices and bias rows, and writes rows 5000·t … 5000·t + 4999 of the
  result.  Entry (p, q) of what it writes is the dense stage's entry (5000·t + p, q) of the whole arrays, because
  that entry reads one row of the two row-blocked operands and one column of the weights.  The ten blocks tile the
  result array, so after the last point the array is the dense stage of the arrays the kernel was entered with.
-/
import proofs.«156512_j56410100465947_1_alg».proof.Proof.PatchedKernelIdealFrame
import proofs.«156512_j56410100465947_1_alg».proof.Proof.KernelBody
import Idealize.ShloMosaic.Lib.Pipeline.Value

set_option maxRecDepth 16384

noncomputable section

namespace Cert.Sage.Region2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked operands and the result move with the point along
    the rows; the weights and biases stay at block zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- The dense stage of the arrays the kernel is entered with. -/
def whole (c : Dev nD) : S50000x1.Idx → EReal :=
  dense (n := 50000) (K := 64) (d := 1) (V c main_v52) (V c main_v39) (V c main_arg9) (V c main_arg10) (V c main_arg11) (V c main_arg12)

/-- What point `t` writes back is block `t` of the dense stage of the whole arrays. -/
theorem flushed_eq (c : Dev nD) (t : Fin cfg2.N) :
    (dat2 V c).flushed 6 t = ((cfg2.win 6).blk t).view.read (Elt Ideal) (whole V c) := by
  show (cfg2.win 6).cut (grid2.coords t) ((dat2 V c).after 6 t) = _
  rw [after2_6]
  unfold out2_6
  rw [View.canon_unit_zero hz2]
  simp only [View.ld_unit_zero (S := S5000x64) hz2, View.ld_unit_zero (S := S64x1) hz2, View.ld_unit_zero (S := S1) hz1]
  obtain ⟨e00, e01, e10, e11, e20, e21, e30, e40, e41, e50, e60, e61⟩ := idx_facts t
  have ht : t.val < 10 := t.isLt
  funext j
  obtain ⟨p, q, rfl⟩ : ∃ (p : Fin 5000) (q : Fin 1), j = ix2 p q := ⟨j 0, j 1, eq_ix2 j⟩
  have hp : p.val < 5000 := p.isLt
  have hq : q.val < 1 := q.isLt
  show k2_pay1 (F := Ideal) (iblk2 V c 0 t) (iblk2 V c 1 t) (iblk2 V c 2 t) (iblk2 V c 4 t) (iblk2 V c 3 t) (iblk2 V c 5 t) (ix2 p q)
      = whole V c (((cfg2.win 6).blk t).view.emb (ix2 p q))
  refine (Body.pay2_at _ _ _ _ _ _ p q).trans ?_
  have hemb : ((cfg2.win 6).blk t).view.emb (ix2 p q) = ix2 (⟨t.val * 5000 + p.val, by omega⟩ : Fin 50000) q :=
    funext fun a => Fin.ext (by
      match a with
      | ⟨0, _⟩ => show win2_6.index t (0 : Fin 2) * 5000 + 1 * p.val = t.val * 5000 + p.val; omega
      | ⟨1, _⟩ => show win2_6.index t (1 : Fin 2) * 1 + 1 * q.val = q.val; omega)
  rw [hemb]
  unfold whole
  rw [dense_ix2]
  refine denseAt_congr _ _ _ _ _ _ _ _ _ _ _ _ p q _ q ?_ ?_ ?_ ?_ ?_ ?_
  · intro k
    have hk : k.val < 64 := k.isLt
    show V c main_v52 (((cfg2.win 0).blk t).view.emb (ix2 p k)) = V c main_v52 (ix2 (⟨t.val * 5000 + p.val, by omega⟩ : Fin 50000) k)
    exact congrArg (V c main_v52) (funext fun a => Fin.ext (by
      match a with
      | ⟨0, _⟩ => show win2_0.index t (0 : Fin 2) * 5000 + 1 * p.val = t.val * 5000 + p.val; omega
      | ⟨1, _⟩ => show win2_0.index t (1 : Fin 2) * 64 + 1 * k.val = k.val; omega))
  · intro k
    have hk : k.val < 64 := k.isLt
    show V c main_v39 (((cfg2.win 1).blk t).view.emb (ix2 p k)) = V c main_v39 (ix2 (⟨t.val * 5000 + p.val, by omega⟩ : Fin 50000) k)
    exact congrArg (V c main_v39) (funext fun a => Fin.ext (by
      match a with
      | ⟨0, _⟩ => show win2_1.index t (0 : Fin 2) * 5000 + 1 * p.val = t.val * 5000 + p.val; omega
      | ⟨1, _⟩ => show win2_1.index t (1 : Fin 2) * 64 + 1 * k.val = k.val; omega))
  · intro k
    have hk : k.val < 64 := k.isLt
    show V c main_arg9 (((cfg2.win 2).blk t).view.emb (ix2 k q)) = V c main_arg9 (ix2 k q)
    exact congrArg (V c main_arg9) (funext fun a => Fin.ext (by
      match a with
      | ⟨0, _⟩ => show win2_2.index t (0 : Fin 2) * 64 + 1 * k.val = k.val; omega
      | ⟨1, _⟩ => show win2_2.index t (1 : Fin 2) * 1 + 1 * q.val = q.val; omega))
  · intro k
    have hk : k.val < 64 := k.isLt
    show V c main_arg11 (((cfg2.win 4).blk t).view.emb (ix2 k q)) = V c main_arg11 (ix2 k q)
    exact congrArg (V c main_arg11) (funext fun a => Fin.ext (by
      match a with
      | ⟨0, _⟩ => show win2_4.index t (0 : Fin 2) * 64 + 1 * k.val = k.val; omega
      | ⟨1, _⟩ => show win2_4.index t (1 : Fin 2) * 1 + 1 * q.val = q.val; omega))
  · show V c main_arg10 (((cfg2.win 3).blk t).view.emb (ix1 q)) = V c main_arg10 (ix1 q)
    exact congrArg (V c main_arg10) (funext fun a => Fin.ext (by
      match a with
      | ⟨0, _⟩ => show win2_3.index t (0 : Fin 1) * 1 + 1 * q.val = q.val; omega))
  · show V c main_arg12 (((cfg2.win 5).blk t).view.emb (ix1 q)) = V c main_arg12 (ix1 q)
    exact congrArg (V c main_arg12) (funext fun a => Fin.ext (by
      match a with
      | ⟨0, _⟩ => show win2_5.index t (0 : Fin 1) * 1 + 1 * q.val = q.val; omega))

/-- An index of the result array is in point `t`'s block iff each coordinate is in the block's range on its axis. -/
theorem mem_blk (t : Fin cfg2.N) (i : S50000x1.Idx) :
    i ∈ ((cfg2.win 6).blk t).view.set ↔ ∀ a : Fin 2, win2_6.index t a * S5000x1.size a ≤ (i a).val ∧ (i a).val < win2_6.index t a * S5000x1.size a + S5000x1.size a := by
  show i ∈ ((View.whole main_v53).slice (win2_6.rect t)).set ↔ _
  rw [View.set_slice_whole, Rect.mem_set_unit]
  exact Iff.rfl

/-- Every index of the result array is in the block of the point that holds its row: point ⌊row / 5000⌋. -/
theorem cover (i : S50000x1.Idx) :
    ∃ t : Fin cfg2.N, (cfg2.win 6).flush t = true ∧ i ∈ ((cfg2.win 6).blk t).view.set := by
  have hi0 : (i 0).val < 50000 := (i 0).isLt
  have hi1 : (i 1).val < 1 := (i 1).isLt
  let t : Fin cfg2.N := ⟨(i 0).val / 5000, by show (i 0).val / 5000 < 10; omega⟩
  obtain ⟨e00, e01, e10, e11, e20, e21, e30, e40, e41, e50, e60, e61⟩ := idx_facts t
  have htv : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 1 ≤ (i 1).val ∧ (i 1).val < win2_6.index t (1 : Fin 2) * 1 + 1; omega

/-- After the last point the result array is the dense stage of the arrays the kernel was entered with. -/
theorem final (c : Dev nD) : (dat2 V c).arrAt 6 cfg2.N = whole V c :=
  (dat2 V c).arrAt_eq_of_cover 6 (whole V c) (fun t _ => flushed_eq V c t) (cover)

end Cert.Sage.Region2

end
-- ==== Proof.SageSpec.lean ====
/-
  The three-stage GraphSAGE network as one function of the argument arrays, and the one law that joins the two
  programs' aggregation.

  An edge array holds a row of source nodes and a row of destination nodes.  A stage first sums, into every node,
  the feature rows of the sources of the edges that end there (`msg`), and divides each row of sums by the number of
  such edges, taken as at least one (`cnt1`): the neighbourhood mean.  One program divides (`meanDiv`); the other
  multiplies by the reciprocal it computed once (`meanMulWith` at `inv`).  On the extended reals the two agree at every
  entry, because the divisor max c 1 is never zero and x · (1 / y) = x / y for every y that is not zero, at infinite
  x and y too: nothing about the sums themselves is needed.  The dense stage of the mean and the features (`dense`)
  follows, and the network is three stages one after the other.
-/
import proofs.«156512_j56410100465947_1_alg».proof.ReferenceIdeal
import proofs.«156512_j56410100465947_1_alg».proof.Proof.Gen.ReferenceIdeal
import proofs.«156512_j56410100465947_1_alg».proof.Proof.SageAlgebra
import Idealize.ShloMosaic.Lib.Pipeline.Value
import Idealize.ShloMosaic.Lib.ValueIdx

noncomputable section

namespace Cert.Sage

open Cert.ReferenceIdeal Cert.ReferenceIdeal.Gen Idealize.ShloMosaic Idealize.ShloMosaic.ValueIdx

/-- The source node of every edge: row 0 of the edge array. -/
def srcOf (e : IVec S2x800000 32) : IVec S800000 32 :=
  shapeCast _ (extractStridedSlice S1x800000 ![0, 0] e slices_S2x800000_S1x800000_0_0) shapeCasts_S1x800000_S800000

/-- The destination node of every edge: row 1 of the edge array. -/
def dstOf (e : IVec S2x800000 32) : IVec S800000 32 :=
  shapeCast _ (extractStridedSlice S1x800000 ![1, 0] e slices_S2x800000_S1x800000_1_0) shapeCasts_S1x800000_S800000

/-- The source nodes as a column of row numbers, a negative number counted from the end. -/
def srcCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The destination nodes as a column of row numbers. -/
def dstCol (d : IVec S800000 32) : IVec S800000x1 32 :=
  broadcastInDim S800000x1 ![0] bcast_S800000_S800000x1_0 d

/-- Into every node, the sum of the feature rows of the sources of the edges that end there. -/
def msg (h : FVec Ideal S50000x64 .f32) (s d : IVec S800000 32) : FVec Ideal S50000x64 .f32 :=
  Host.scatterAdd scatter_S50000x64_S800000x1_S800000x64_1_0_0_1
    (broadcastInDim S50000x64 ![] bcast_S_S50000x64 (constant (F := Ideal) S_ .f32 0x00000000#32)) (dstCol d)
    (Host.gather gather_S50000x64_S800000x1_S800000x64_1_0_n_n_0_1_164 h (srcCol s))

/-- The number of edges that end at every node, taken as at least one. -/
def cnt1 (d : IVec S800000 32) : FVec Ideal S50000 .f32 :=
  maximumf
    (Host.scatterAdd scatter_S50000_S800000x1_S800000_n_0_0_1
      (broadcastInDim S50000 ![] bcast_S_S50000 (constant (F := Ideal) S_ .f32 0x00000000#32)) (dstCol d)
      (broadcastInDim S800000 ![] bcast_S_S800000 (constant (F := Ideal) S_ .f32 0x3F800000#32)))
    (broadcastInDim S50000 ![] bcast_S_S50000 (constant (F := Ideal) S_ .f32 0x3F800000#32))

/-- A per-node number laid along the 64 entries of the node's row. -/
def col2 (v : FVec Ideal S50000 .f32) : FVec Ideal S50000x64 .f32 :=
  broadcastInDim S50000x64 ![0, 1] bcast_S50000x1_S50000x64_0_1 (broadcastInDim S50000x1 ![0] bcast_S50000_S50000x1_0 v)

/-- The reciprocal of the count. -/
def inv (d : IVec S800000 32) : FVec Ideal S50000 .f32 :=
  Host.divf (broadcastInDim S50000 ![] bcast_S_S50000 (constant (F := Ideal) S_ .f32 0x3F800000#32)) (cnt1 d)

/-- The neighbourhood mean as a quotient by the count. -/
def meanDiv (h : FVec Ideal S50000x64 .f32) (s d : IVec S800000 32) : FVec Ideal S50000x64 .f32 :=
  Host.divf (msg h s d) (col2 (cnt1 d))

/-- The neighbourhood sums times a per-node factor. -/
def meanMulWith (h : FVec Ideal S50000x64 .f32) (s d : IVec S800000 32) (iv : FVec Ideal S50000 .f32) : FVec Ideal S50000x64 .f32 :=
  mulf (msg h s d) (col2 iv)

/-- A per-node number laid along its row, read at an entry. -/
theorem col2_apply (v : FVec Ideal S50000 .f32) (r : Fin 50000) (c : Fin 64) : col2 v (ix2 r c) = v (ix1 r) := by
  unfold col2
  rw [broadcastInDim_apply ![0, 1] bcast_S50000x1_S50000x64_0_1 _ (ix2 r c) (ix2 r (0 : Fin 1)) (fun a => by
      match a with
      | ⟨0, _⟩ => rfl
      | ⟨1, _⟩ => rfl),
    broadcastInDim_apply ![0] bcast_S50000_S50000x1_0 v (ix2 r (0 : Fin 1)) (ix1 r) (fun a => by
      match a with
      | ⟨0, _⟩ => rfl)]

/-- The host quotient read at an index. -/
theorem hostDivf_apply {s : Shape} (a b : FVec Ideal s .f32) (i : s.Idx) : Host.divf a b i = Ideal.div (a i) (b i) := rfl

/-- A scalar constant laid over an array, read at an index, is what its word denotes. -/
theorem splat_apply {t : Shape} (h : S_.BroadcastsInDim t (![] : Fin 0 → Fin t.rank)) (w : BitVec 32) (i : t.Idx) :
    broadcastInDim t ![] h (constant (F := Ideal) S_ .f32 w) i = Ideal.ofBits .f32 w := by
  rw [broadcastInDim_apply ![] h _ i ix0 (fun a => a.elim0), constant_apply]

/-- For any array of sums `M`, any per-node divisor `C` that is nowhere zero and any per-node array `one` that is one
    everywhere: the product of `M` with the reciprocal `one / C` laid along the rows is the quotient of `M` by `C` laid
    along the rows. -/
theorem mean_law (M : FVec Ideal S50000x64 .f32) (C one : FVec Ideal S50000 .f32) (h1 : ∀ i, one i = 1) (hC : ∀ i, C i ≠ 0) :
    mulf M (col2 (Host.divf one C)) = Host.divf M (col2 C) := by
  funext j
  obtain ⟨r, c, rfl⟩ : ∃ (r : Fin 50000) (c : Fin 64), j = ix2 r c := ⟨j 0, j 1, eq_ix2 j⟩
  rw [mulf_apply, hostDivf_apply, col2_apply, col2_apply, hostDivf_apply, h1]
  exact mul_inv_eq_div _ _ (hC _)

/-- The count taken as at least one is nowhere zero. -/
theorem cnt1_ne_zero (d : IVec S800000 32) (i : S50000.Idx) : cnt1 d i ≠ 0 := by
  unfold cnt1
  generalize Host.scatterAdd (F := Ideal) scatter_S50000_S800000x1_S800000_n_0_0_1 _ _ _ = X
  rw [maximumf_apply, splat_apply, ofBits_one_f32]
  exact max_one_ne_zero _

/-- Multiplying the sums by the reciprocal of the count is dividing them by the count. -/
theorem meanMulWith_inv (h : FVec Ideal S50000x64 .f32) (s d : IVec S800000 32) :
    meanMulWith h s d (inv d) = meanDiv h s d := by
  unfold meanMulWith meanDiv inv
  exact mean_law _ _ _ (fun i => (splat_apply _ _ i).trans ofBits_one_f32) (cnt1_ne_zero d)

/-- One stage on whole arrays: the dense stage of the neighbourhood mean and the features. -/
def stage64 (h : FVec Ideal S50000x64 .f32) (Wl : FVec Ideal S64x64 .f32) (bl : FVec Ideal S64 .f32)
    (Ws : FVec Ideal S64x64 .f32) (bs : FVec Ideal S64 .f32) (s d : IVec S800000 32) : FVec Ideal S50000x64 .f32 :=
  dense (n := 50000) (K := 64) (d := 64) (meanDiv h s d) h Wl bl Ws bs

/-- The last stage, whose weights have one column. -/
def stage1 (h : FVec Ideal S50000x64 .f32) (Wl : FVec Ideal S64x1 .f32) (bl : FVec Ideal S1 .f32)
    (Ws : FVec Ideal S64x1 .f32) (bs : FVec Ideal S1 .f32) (s d : IVec S800000 32) : FVec Ideal S50000x1 .f32 :=
  dense (n := 50000) (K := 64) (d := 1) (meanDiv h s d) h Wl bl Ws bs

/-- The network: three stages over one edge array. -/
def net (x : FVec Ideal S50000x64 .f32)
    (Wl0 : FVec Ideal S64x64 .f32) (bl0 : FVec Ideal S64 .f32) (Ws0 : FVec Ideal S64x64 .f32) (bs0 : FVec Ideal S64 .f32)
    (Wl1 : FVec Ideal S64x64 .f32) (bl1 : FVec Ideal S64 .f32) (Ws1 : FVec Ideal S64x64 .f32) (bs1 : FVec Ideal S64 .f32)
    (Wl2 : FVec Ideal S64x1 .f32) (bl2 : FVec Ideal S1 .f32) (Ws2 : FVec Ideal S64x1 .f32) (bs2 : FVec Ideal S1 .f32)
    (e : IVec S2x800000 32) : FVec Ideal S50000x1 .f32 :=
  stage1 (stage64 (stage64 x Wl0 bl0 Ws0 bs0 (srcOf e) (dstOf e)) Wl1 bl1 Ws1 bs1 (srcOf e) (dstOf e)) Wl2 bl2 Ws2 bs2 (srcOf e) (dstOf e)

end Cert.Sage

end
-- ==== Proof.KernelHost.lean ====
/-
  What the three kernels are entered with, and what the program returns.

  The program runs a stretch of host operations, a kernel, a second stretch, a second kernel, a third stretch and a
  third kernel.  The first stretch computes the source and destination rows of the edge array, the reciprocal of the
  in-degree taken as at least one, and the first neighbourhood mean (the aggregated sums times that reciprocal); each
  later stretch computes the next mean from the previous kernel's result and the same three arrays, which nothing in
  between overwrites.  No host operation and no kernel writes an argument.  Reading every buffer a kernel takes back
  to the argument arrays, and each kernel's result as the dense stage of what it was entered with, the returned
  array is the three-stage network of the arguments.
-/
import proofs.«156512_j56410100465947_1_alg».proof.Proof.PatchedKernelIdealFrame
import proofs.«156512_j56410100465947_1_alg».proof.Proof.KernelRegion0
import proofs.«156512_j56410100465947_1_alg».proof.Proof.KernelRegion1
import proofs.«156512_j56410100465947_1_alg».proof.Proof.KernelRegion2
import proofs.«156512_j56410100465947_1_alg».proof.Proof.SageSpec
import Idealize.ShloMosaic.Lib.StableHlo.Run

set_option maxRecDepth 16384

noncomputable section

namespace Cert.Sage.Host

open Cert.KernelIdeal Cert.KernelIdeal.Gen Cert.KernelIdeal.GenP Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a stretch writes holds after the stretch what it held before. -/
macro "host_keeps " ops:ident : tactic => `(tactic|
  (refine StableHlo.after_of_forall_not_mem _ _ (List.forall_iff_forall_mem.mp ?_)
   simp only [$ops:ident, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## The first stretch, from the launch memory -/

theorem V1_arg0 (c : Dev nD) : V1 m ρ c main_arg0 = m ((c : Thread nD τ).loc main_arg0) := by
  show StableHlo.after hostOps0 (W0 m ρ c) (Proc.devRef .tc main_arg0) = _
  refine Eq.trans ?_ rfl
  host_keeps hostOps0
theorem V1_arg1 (c : Dev nD) : V1 m ρ c main_arg1 = m ((c : Thread nD τ).loc main_arg1) := by
  show StableHlo.after hostOps0 (W0 m ρ c) (Proc.devRef .tc main_arg1) = _
  refine Eq.trans ?_ rfl
  host_keeps hostOps0
theorem V1_arg2 (c : Dev nD) : V1 m ρ c main_arg2 = m ((c : Thread nD τ).loc main_arg2) := by
  show StableHlo.after hostOps0 (W0 m ρ c) (Proc.devRef .tc main_arg2) = _
  refine Eq.trans ?_ rfl
  host_keeps hostOps0
theorem V1_arg3 (c : Dev nD) : V1 m ρ c main_arg3 = m ((c : Thread nD τ).loc main_arg3) := by
  show StableHlo.after hostOps0 (W0 m ρ c) (Proc.devRef .tc main_arg3) = _
  refine Eq.trans ?_ rfl
  host_keeps hostOps0
theorem V1_arg4 (c : Dev nD) : V1 m ρ c main_arg4 = m ((c : Thread nD τ).loc main_arg4) := by
  show StableHlo.after hostOps0 (W0 m ρ c) (Proc.devRef .tc main_arg4) = _
  refine Eq.trans ?_ rfl
  host_keeps hostOps0
theorem V1_arg5 (c : Dev nD) : V1 m ρ c main_arg5 = m ((c : Thread nD τ).loc main_arg5) := by
  show StableHlo.after hostOps0 (W0 m ρ c) (Proc.devRef .tc main_arg5) = _
  refine Eq.trans ?_ rfl
  host_keeps hostOps0
theorem V1_arg6 (c : Dev nD) : V1 m ρ c main_arg6 = m ((c : Thread nD τ).loc main_arg6) := by
  show StableHlo.after hostOps0 (W0 m ρ c) (Proc.devRef .tc main_arg6) = _
  refine Eq.trans ?_ rfl
  host_keeps hostOps0
theorem V1_arg7 (c : Dev nD) : V1 m ρ c main_arg7 = m ((c : Thread nD τ).loc main_arg7) := by
  show StableHlo.after hostOps0 (W0 m ρ c) (Proc.devRef .tc main_arg7) = _
  refine Eq.trans ?_ rfl
  host_keeps hostOps0
theorem V1_arg8 (c : Dev nD) : V1 m ρ c main_arg8 = m ((c : Thread nD τ).loc main_arg8) := by
  show StableHlo.after hostOps0 (W0 m ρ c) (Proc.devRef .tc main_arg8) = _
  refine Eq.trans ?_ rfl
  host_keeps hostOps0
theorem V1_arg9 (c : Dev nD) : V1 m ρ c main_arg9 = m ((c : Thread nD τ).loc main_arg9) := by
  show StableHlo.after hostOps0 (W0 m ρ c) (Proc.devRef .tc main_arg9) = _
  refine Eq.trans ?_ rfl
  host_keeps hostOps0
theorem V1_arg10 (c : Dev nD) : V1 m ρ c main_arg10 = m ((c : Thread nD τ).loc main_arg10) := by
  show StableHlo.after hostOps0 (W0 m ρ c) (Proc.devRef .tc main_arg10) = _
  refine Eq.trans ?_ rfl
  host_keeps hostOps0
theorem V1_arg11 (c : Dev nD) : V1 m ρ c main_arg11 = m ((c : Thread nD τ).loc main_arg11) := by
  show StableHlo.after hostOps0 (W0 m ρ c) (Proc.devRef .tc main_arg11) = _
  refine Eq.trans ?_ rfl
  host_keeps hostOps0
theorem V1_arg12 (c : Dev nD) : V1 m ρ c main_arg12 = m ((c : Thread nD τ).loc main_arg12) := by
  show StableHlo.after hostOps0 (W0 m ρ c) (Proc.devRef .tc main_arg12) = _
  refine Eq.trans ?_ rfl
  host_keeps hostOps0

theorem V1_v1 (c : Dev nD) : V1 m ρ c main_v1 = srcOf (m ((c : Thread nD τ).loc main_arg13)) := by
  show StableHlo.after hostOps0 (W0 m ρ c) (Proc.devRef .tc main_v1) = _
  after_results_simp <;> rfl
theorem V1_v3 (c : Dev nD) : V1 m ρ c main_v3 = dstOf (m ((c : Thread nD τ).loc main_arg13)) := by
  show StableHlo.after hostOps0 (W0 m ρ c) (Proc.devRef .tc main_v3) = _
  after_results_simp <;> rfl
theorem V1_v11 (c : Dev nD) : V1 m ρ c main_v11 = inv (dstOf (m ((c : Thread nD τ).loc main_arg13))) := by
  show StableHlo.after hostOps0 (W0 m ρ c) (Proc.devRef .tc main_v11) = _
  after_results_simp <;> rfl
/-- The first mean: the sums of the argument features times the reciprocal count. -/
theorem V1_v24 (c : Dev nD) : V1 m ρ c main_v24
    = meanMulWith (m ((c : Thread nD τ).loc main_arg0)) (srcOf (m ((c : Thread nD τ).loc main_arg13))) (dstOf (m ((c : Thread nD τ).loc main_arg13))) (inv (dstOf (m ((c : Thread nD τ).loc main_arg13)))) := by
  show StableHlo.after hostOps0 (W0 m ρ c) (Proc.devRef .tc main_v24) = _
  after_results_simp <;> rfl

/-! ## The first kernel's exit -/

theorem V2_v25 (c : Dev nD) : V2 m ρ c main_v25 = Region0.whole (V1 m ρ) c :=
  (W2_arr m ρ c 6).trans (Region0.final (V1 m ρ) c)
theorem V2_v1 (c : Dev nD) : V2 m ρ c main_v1 = srcOf (m ((c : Thread nD τ).loc main_arg13)) := (W2_of_ne m ρ c main_v1 (by decide)).trans (V1_v1 m ρ c)
theorem V2_v3 (c : Dev nD) : V2 m ρ c main_v3 = dstOf (m ((c : Thread nD τ).loc main_arg13)) := (W2_of_ne m ρ c main_v3 (by decide)).trans (V1_v3 m ρ c)
theorem V2_v11 (c : Dev nD) : V2 m ρ c main_v11 = inv (dstOf (m ((c : Thread nD τ).loc main_arg13))) := (W2_of_ne m ρ c main_v11 (by decide)).trans (V1_v11 m ρ c)
theorem V2_arg5 (c : Dev nD) : V2 m ρ c main_arg5 = m ((c : Thread nD τ).loc main_arg5) := (W2_of_ne m ρ c main_arg5 (by decide)).trans (V1_arg5 m ρ c)
theorem V2_arg6 (c : Dev nD) : V2 m ρ c main_arg6 = m ((c : Thread nD τ).loc main_arg6) := (W2_of_ne m ρ c main_arg6 (by decide)).trans (V1_arg6 m ρ c)
theorem V2_arg7 (c : Dev nD) : V2 m ρ c main_arg7 = m ((c : Thread nD τ).loc main_arg7) := (W2_of_ne m ρ c main_arg7 (by decide)).trans (V1_arg7 m ρ c)
theorem V2_arg8 (c : Dev nD) : V2 m ρ c main_arg8 = m ((c : Thread nD τ).loc main_arg8) := (W2_of_ne m ρ c main_arg8 (by decide)).trans (V1_arg8 m ρ c)
theorem V2_arg9 (c : Dev nD) : V2 m ρ c main_arg9 = m ((c : Thread nD τ).loc main_arg9) := (W2_of_ne m ρ c main_arg9 (by decide)).trans (V1_arg9 m ρ c)
theorem V2_arg10 (c : Dev nD) : V2 m ρ c main_arg10 = m ((c : Thread nD τ).loc main_arg10) := (W2_of_ne m ρ c main_arg10 (by decide)).trans (V1_arg10 m ρ c)
theorem V2_arg11 (c : Dev nD) : V2 m ρ c main_arg11 = m ((c : Thread nD τ).loc main_arg11) := (W2_of_ne m ρ c main_arg11 (by decide)).trans (V1_arg11 m ρ c)
theorem V2_arg12 (c : Dev nD) : V2 m ρ c main_arg12 = m ((c : Thread nD τ).loc main_arg12) := (W2_of_ne m ρ c main_arg12 (by decide)).trans (V1_arg12 m ρ c)

/-! ## The second stretch -/

theorem V3_arg5 (c : Dev nD) : V3 m ρ c main_arg5 = m ((c : Thread nD τ).loc main_arg5) := by
  show StableHlo.after hostOps1 (W2 m ρ c) (Proc.devRef .tc main_arg5) = _
  refine Eq.trans ?_ (V2_arg5 m ρ c)
  host_keeps hostOps1
theorem V3_arg6 (c : Dev nD) : V3 m ρ c main_arg6 = m ((c : Thread nD τ).loc main_arg6) := by
  show StableHlo.after hostOps1 (W2 m ρ c) (Proc.devRef .tc main_arg6) = _
  refine Eq.trans ?_ (V2_arg6 m ρ c)
  host_keeps hostOps1
theorem V3_arg7 (c : Dev nD) : V3 m ρ c main_arg7 = m ((c : Thread nD τ).loc main_arg7) := by
  show StableHlo.after hostOps1 (W2 m ρ c) (Proc.devRef .tc main_arg7) = _
  refine Eq.trans ?_ (V2_arg7 m ρ c)
  host_keeps hostOps1
theorem V3_arg8 (c : Dev nD) : V3 m ρ c main_arg8 = m ((c : Thread nD τ).loc main_arg8) := by
  show StableHlo.after hostOps1 (W2 m ρ c) (Proc.devRef .tc main_arg8) = _
  refine Eq.trans ?_ (V2_arg8 m ρ c)
  host_keeps hostOps1
theorem V3_arg9 (c : Dev nD) : V3 m ρ c main_arg9 = m ((c : Thread nD τ).loc main_arg9) := by
  show StableHlo.after hostOps1 (W2 m ρ c) (Proc.devRef .tc main_arg9) = _
  refine Eq.trans ?_ (V2_arg9 m ρ c)
  host_keeps hostOps1
theorem V3_arg10 (c : Dev nD) : V3 m ρ c main_arg10 = m ((c : Thread nD τ).loc main_arg10) := by
  show StableHlo.after hostOps1 (W2 m ρ c) (Proc.devRef .tc main_arg10) = _
  refine Eq.trans ?_ (V2_arg10 m ρ c)
  host_keeps hostOps1
theorem V3_arg11 (c : Dev nD) : V3 m ρ c main_arg11 = m ((c : Thread nD τ).loc main_arg11) := by
  show StableHlo.after hostOps1 (W2 m ρ c) (Proc.devRef .tc main_arg11) = _
  refine Eq.trans ?_ (V2_arg11 m ρ c)
  host_keeps hostOps1
theorem V3_arg12 (c : Dev nD) : V3 m ρ c main_arg12 = m ((c : Thread nD τ).loc main_arg12) := by
  show StableHlo.after hostOps1 (W2 m ρ c) (Proc.devRef .tc main_arg12) = _
  refine Eq.trans ?_ (V2_arg12 m ρ c)
  host_keeps hostOps1
theorem V3_v1 (c : Dev nD) : V3 m ρ c main_v1 = srcOf (m ((c : Thread nD τ).loc main_arg13)) := by
  show StableHlo.after hostOps1 (W2 m ρ c) (Proc.devRef .tc main_v1) = _
  refine Eq.trans ?_ (V2_v1 m ρ c)
  host_keeps hostOps1
theorem V3_v3 (c : Dev nD) : V3 m ρ c main_v3 = dstOf (m ((c : Thread nD τ).loc main_arg13)) := by
  show StableHlo.after hostOps1 (W2 m ρ c) (Proc.devRef .tc main_v3) = _
  refine Eq.trans ?_ (V2_v3 m ρ c)
  host_keeps hostOps1
theorem V3_v11 (c : Dev nD) : V3 m ρ c main_v11 = inv (dstOf (m ((c : Thread nD τ).loc main_arg13))) := by
  show StableHlo.after hostOps1 (W2 m ρ c) (Proc.devRef .tc main_v11) = _
  refine Eq.trans ?_ (V2_v11 m ρ c)
  host_keeps hostOps1
theorem V3_v25 (c : Dev nD) : V3 m ρ c main_v25 = Region0.whole (V1 m ρ) c := by
  show StableHlo.after hostOps1 (W2 m ρ c) (Proc.devRef .tc main_v25) = _
  refine Eq.trans ?_ (V2_v25 m ρ c)
  host_keeps hostOps1
/-- The second mean: the sums of the first kernel's result times the reciprocal count. -/
theorem V3_v38 (c : Dev nD) : V3 m ρ c main_v38
    = meanMulWith (V2 m ρ c main_v25) (V2 m ρ c main_v1) (V2 m ρ c main_v3) (V2 m ρ c main_v11) := by
  show StableHlo.after hostOps1 (W2 m ρ c) (Proc.devRef .tc main_v38) = _
  after_results_simp <;> rfl

/-! ## The second kernel's exit -/

theorem V4_v39 (c : Dev nD) : V4 m ρ c main_v39 = Region1.whole (V3 m ρ) c :=
  (W4_arr m ρ c 6).trans (Region1.final (V3 m ρ) c)
theorem V4_v1 (c : Dev nD) : V4 m ρ c main_v1 = srcOf (m ((c : Thread nD τ).loc main_arg13)) := (W4_of_ne m ρ c main_v1 (by decide)).trans (V3_v1 m ρ c)
theorem V4_v3 (c : Dev nD) : V4 m ρ c main_v3 = dstOf (m ((c : Thread nD τ).loc main_arg13)) := (W4_of_ne m ρ c main_v3 (by decide)).trans (V3_v3 m ρ c)
theorem V4_v11 (c : Dev nD) : V4 m ρ c main_v11 = inv (dstOf (m ((c : Thread nD τ).loc main_arg13))) := (W4_of_ne m ρ c main_v11 (by decide)).trans (V3_v11 m ρ c)
theorem V4_arg9 (c : Dev nD) : V4 m ρ c main_arg9 = m ((c : Thread nD τ).loc main_arg9) := (W4_of_ne m ρ c main_arg9 (by decide)).trans (V3_arg9 m ρ c)
theorem V4_arg10 (c : Dev nD) : V4 m ρ c main_arg10 = m ((c : Thread nD τ).loc main_arg10) := (W4_of_ne m ρ c main_arg10 (by decide)).trans (V3_arg10 m ρ c)
theorem V4_arg11 (c : Dev nD) : V4 m ρ c main_arg11 = m ((c : Thread nD τ).loc main_arg11) := (W4_of_ne m ρ c main_arg11 (by decide)).trans (V3_arg11 m ρ c)
theorem V4_arg12 (c : Dev nD) : V4 m ρ c main_arg12 = m ((c : Thread nD τ).loc main_arg12) := (W4_of_ne m ρ c main_arg12 (by decide)).trans (V3_arg12 m ρ c)

/-! ## The third stretch -/

theorem V5_arg9 (c : Dev nD) : V5 m ρ c main_arg9 = m ((c : Thread nD τ).loc main_arg9) := by
  show StableHlo.after hostOps2 (W4 m ρ c) (Proc.devRef .tc main_arg9) = _
  refine Eq.trans ?_ (V4_arg9 m ρ c)
  host_keeps hostOps2
theorem V5_arg10 (c : Dev nD) : V5 m ρ c main_arg10 = m ((c : Thread nD τ).loc main_arg10) := by
  show StableHlo.after hostOps2 (W4 m ρ c) (Proc.devRef .tc main_arg10) = _
  refine Eq.trans ?_ (V4_arg10 m ρ c)
  host_keeps hostOps2
theorem V5_arg11 (c : Dev nD) : V5 m ρ c main_arg11 = m ((c : Thread nD τ).loc main_arg11) := by
  show StableHlo.after hostOps2 (W4 m ρ c) (Proc.devRef .tc main_arg11) = _
  refine Eq.trans ?_ (V4_arg11 m ρ c)
  host_keeps hostOps2
theorem V5_arg12 (c : Dev nD) : V5 m ρ c main_arg12 = m ((c : Thread nD τ).loc main_arg12) := by
  show StableHlo.after hostOps2 (W4 m ρ c) (Proc.devRef .tc main_arg12) = _
  refine Eq.trans ?_ (V4_arg12 m ρ c)
  host_keeps hostOps2
theorem V5_v39 (c : Dev nD) : V5 m ρ c main_v39 = Region1.whole (V3 m ρ) c := by
  show StableHlo.after hostOps2 (W4 m ρ c) (Proc.devRef .tc main_v39) = _
  refine Eq.trans ?_ (V4_v39 m ρ c)
  host_keeps hostOps2
/-- The third mean: the sums of the second kernel's result times the reciprocal count. -/
theorem V5_v52 (c : Dev nD) : V5 m ρ c main_v52
    = meanMulWith (V4 m ρ c main_v39) (V4 m ρ c main_v1) (V4 m ρ c main_v3) (V4 m ρ c main_v11) := by
  show StableHlo.after hostOps2 (W4 m ρ c) (Proc.devRef .tc main_v52) = _
  after_results_simp <;> rfl

/-! ## The third kernel's exit: the returned array -/

theorem V6_v53 (c : Dev nD) : V6 m ρ c main_v53 = Region2.whole (V5 m ρ) c :=
  (W6_arr m ρ c 6).trans (Region2.final (V5 m ρ) c)

/-- The returned array is the network of the argument arrays. -/
theorem kernel_value (c : Dev nD) : V6 m ρ c main_v53
    = net (m ((c : Thread nD τ).loc main_arg0))
        (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12))
        (m ((c : Thread nD τ).loc main_arg13)) := by
  rw [V6_v53]
  unfold Region2.whole
  rw [V5_v52, V5_v39, V5_arg9, V5_arg10, V5_arg11, V5_arg12, V4_v39, V4_v1, V4_v3, V4_v11]
  unfold Region1.whole
  rw [V3_v38, V3_v25, V3_arg5, V3_arg6, V3_arg7, V3_arg8, V2_v25, V2_v1, V2_v3, V2_v11]
  unfold Region0.whole
  rw [V1_v24, V1_arg0, V1_arg1, V1_arg2, V1_arg3, V1_arg4]
  simp only [meanMulWith_inv]
  rfl

end Cert.Sage.Host

end
-- ==== Proof.LibDotGeneralAt.lean ====
/-
  A general fact about a host contraction, for any sizes.

  * dotGeneral_at: a host dot_general of a plain matrix product (rows × contracted axis, contracted axis ×
    columns), read at entry (r, c) at the ideal instance, is the sum over the contracted axis of
    lhs[r,k] · rhs[k,c], whatever the precision and the schedule key. It is the host-side companion of the
    same reading of a kernel's matrix product into the zero accumulator: the two sums are then literally the
    same sum over Fin K.
-/
import Idealize.ShloMosaic.PureOps.Ideal.Laws
import Idealize.ShloMosaic.Lib.ValueIdx

noncomputable section

namespace Cert.Lib.DotGeneralAt

open Idealize.ShloMosaic Idealize.ShloMosaic.ValueIdx

/-- A host dot_general of a plain matrix product, read at entry (r, c): the sum over the contracted axis of
    the row's entries times the column's. The four hypotheses name the coordinates of the operands' indices at
    an output index and a contraction index (for a printed dimension record: two by unfolding the index maps,
    two by the library's lhsIdx_val_of_single / rhsIdx_val_of_single). -/
theorem dotGeneral_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision) (sched : HostSchedule)
    (lhs : FVec Ideal ⟨2, ![n, K]⟩ φ₁) (rhs : FVec Ideal ⟨2, ![K, d]⟩ φ₂) (r : Fin n) (c : Fin d) :
    FloatOps.dotGeneral D prec sched lhs rhs (ix2 r c) = ∑ k : Fin K, lhs (ix2 r k) * rhs (ix2 k c) := by
  rw [Ideal.dotGeneral_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.DotGeneralAt

end
-- ==== Proof.RefValue.lean ====
/-
  The reference program's result is the network `net` of its arguments.

  Each of its three stages spells the dense stage in host operations: a product of the mean with Wl, the bias bl laid
  along the rows, a product of the features with Ws, the bias bs, and a maximum with zero, added in the order
  ((mean·Wl + bl) + h·Ws) + bs.  At an entry (r, c) each product is the sum over the 64 contracted positions, each
  bias row is its entry c, and the two groupings of the four summands agree; so the host spelling is `dense`.  The mean
  itself is already the quotient `meanDiv` of the aggregated sums by the count, in the reference's own operations.
-/
import proofs.«156512_j56410100465947_1_alg».proof.Proof.Gen.ReferenceIdeal.Run
import proofs.«156512_j56410100465947_1_alg».proof.Proof.Gen.ReferenceIdeal.Read
import proofs.«156512_j56410100465947_1_alg».proof.Proof.LibDotGeneralAt
import proofs.«156512_j56410100465947_1_alg».proof.Proof.SageSpec

noncomputable section

namespace Cert.Sage.Ref

open Cert.ReferenceIdeal Cert.ReferenceIdeal.Gen Cert.ReferenceIdeal.Read
open Idealize.ShloMosaic Idealize.ShloMosaic.TcCoe Idealize.ShloMosaic.ValueIdx Idealize.SL.Sem

/-- A bias of 64 entries laid along the rows of a 50000 × 64 array, read at an entry. -/
theorem row64_apply (b : FVec Ideal S64 .f32) (r : Fin 50000) (c : Fin 64) :
    broadcastInDim S50000x64 ![0, 1] bcast_S1x64_S50000x64_0_1 (broadcastInDim S1x64 ![1] bcast_S64_S1x64_1 b) (ix2 r c) = b (ix1 c) := by
  rw [broadcastInDim_apply ![0, 1] bcast_S1x64_S50000x64_0_1 _ (ix2 r c) (ix2 (0 : Fin 1) c) (fun a => by
      match a with
      | ⟨0, _⟩ => rfl
      | ⟨1, _⟩ => rfl),
    broadcastInDim_apply ![1] bcast_S64_S1x64_1 b (ix2 (0 : Fin 1) c) (ix1 c) (fun a => by
      match a with
      | ⟨0, _⟩ => rfl)]

/-- A bias of one entry laid along the rows of a 50000 × 1 array, read at an entry. -/
theorem row1_apply (b : FVec Ideal S1 .f32) (r : Fin 50000) (c : Fin 1) :
    broadcastInDim S50000x1 ![0, 1] bcast_S1x1_S50000x1_0_1 (broadcastInDim S1x1 ![1] bcast_S1_S1x1_1 b) (ix2 r c) = b (ix1 c) := by
  have hc : c.val = 0 := by omega
  rw [broadcastInDim_apply ![0, 1] bcast_S1x1_S50000x1_0_1 _ (ix2 r c) (ix2 (0 : Fin 1) c) (fun a => by
      match a with
      | ⟨0, _⟩ => rfl
      | ⟨1, _⟩ => exact hc),
    broadcastInDim_apply ![1] bcast_S1_S1x1_1 b (ix2 (0 : Fin 1) c) (ix1 c) (fun a => by
      match a with
      | ⟨0, _⟩ => exact hc)]

/-- The host spelling of a stage with 64 output columns is the dense stage. -/
theorem hostStage64 (mean h : FVec Ideal S50000x64 .f32) (Wl : FVec Ideal S64x64 .f32) (bl : FVec Ideal S64 .f32)
    (Ws : FVec Ideal S64x64 .f32) (bs : FVec Ideal S64 .f32) :
    maximumf
      (addf (addf (addf (Host.dotGeneral dot_S50000x64_S64x64_S50000x64_1_0_0_1_n_n none mean Wl)
          (broadcastInDim S50000x64 ![0, 1] bcast_S1x64_S50000x64_0_1 (broadcastInDim S1x64 ![1] bcast_S64_S1x64_1 bl)))
        (Host.dotGeneral dot_S50000x64_S64x64_S50000x64_1_0_0_1_n_n none h Ws))
        (broadcastInDim S50000x64 ![0, 1] bcast_S1x64_S50000x64_0_1 (broadcastInDim S1x64 ![1] bcast_S64_S1x64_1 bs)))
      (broadcastInDim S50000x64 ![] bcast_S_S50000x64 (constant (F := Ideal) S_ .f32 0x00000000#32))
    = dense (n := 50000) (K := 64) (d := 64) mean h Wl bl Ws bs := by
  funext j
  obtain ⟨r, c, rfl⟩ : ∃ (r : Fin 50000) (c : Fin 64), j = ix2 r c := ⟨j 0, j 1, eq_ix2 j⟩
  rw [maximumf_apply, addf_apply, addf_apply, addf_apply, splat_apply, Ideal.ofBits_zero_f32, row64_apply, row64_apply, dense_ix2]
  unfold denseAt
  simp only [Host.dotGeneral]
  rw [Cert.Lib.DotGeneralAt.dotGeneral_at _ rfl rfl lhs_main_v23_0 lhs_main_v23_1 rhs_main_v23_0 rhs_main_v23_1,
    Cert.Lib.DotGeneralAt.dotGeneral_at _ rfl rfl lhs_main_v23_0 lhs_main_v23_1 rhs_main_v23_0 rhs_main_v23_1,
    add_bias_comm]

/-- The host spelling of the stage with one output column is the dense stage. -/
theorem hostStage1 (mean h : FVec Ideal S50000x64 .f32) (Wl : FVec Ideal S64x1 .f32) (bl : FVec Ideal S1 .f32)
    (Ws : FVec Ideal S64x1 .f32) (bs : FVec Ideal S1 .f32) :
    maximumf
      (addf (addf (addf (Host.dotGeneral dot_S50000x64_S64x1_S50000x1_1_0_0_1_n_n none mean Wl)
          (broadcastInDim S50000x1 ![0, 1] bcast_S1x1_S50000x1_0_1 (broadcastInDim S1x1 ![1] bcast_S1_S1x1_1 bl)))
        (Host.dotGeneral dot_S50000x64_S64x1_S50000x1_1_0_0_1_n_n none h Ws))
        (broadcastInDim S50000x1 ![0, 1] bcast_S1x1_S50000x1_0_1 (broadcastInDim S1x1 ![1] bcast_S1_S1x1_1 bs)))
      (broadcastInDim S50000x1 ![] bcast_S_S50000x1 (constant (F := Ideal) S_ .f32 0x00000000#32))
    = dense (n := 50000) (K := 64) (d := 1) mean h Wl bl Ws bs := by
  funext j
  obtain ⟨r, c, rfl⟩ : ∃ (r : Fin 50000) (c : Fin 1), j = ix2 r c := ⟨j 0, j 1, eq_ix2 j⟩
  rw [maximumf_apply, addf_apply, addf_apply, addf_apply, splat_apply, Ideal.ofBits_zero_f32, row1_apply, row1_apply, dense_ix2]
  unfold denseAt
  simp only [Host.dotGeneral]
  rw [Cert.Lib.DotGeneralAt.dotGeneral_at _ rfl rfl lhs_main_v89_0 lhs_main_v89_1 rhs_main_v89_0 rhs_main_v89_1,
    Cert.Lib.DotGeneralAt.dotGeneral_at _ rfl rfl lhs_main_v89_0 lhs_main_v89_1 rhs_main_v89_0 rhs_main_v89_1,
    add_bias_comm]

set_option maxRecDepth 400000 in
/-- The reference's result is the network of its arguments. -/
theorem result_eq (m : (ℓ : Loc nD τ sig) → Buf (Elt Ideal) ℓ) (c : Dev nD) :
    Cert.ReferenceIdeal.Value.res_main_v98 (F := Ideal) m c
      = net (m ((c.tc : Thread nD τ).loc main_arg0))
          (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12))
          (m ((c.tc : Thread nD τ).loc main_arg13)) := by
  unfold Cert.ReferenceIdeal.Value.res_main_v98
  generalize m ((c.tc : Thread nD τ).loc main_arg13) = e
  generalize m ((c.tc : Thread nD τ).loc main_arg0) = x
  rw [hostStage1, hostStage64, hostStage64]
  rfl

end Cert.Sage.Ref

end
-- ==== Proof.lean ====
/-
  A three-stage GraphSAGE network computed two ways, equal on the extended reals.

  Both programs take node features x (50000 × 64), three pairs of weight matrices with their bias rows, and an edge
  array (a row of source nodes, a row of destination nodes).  A stage sums into every node the feature rows of the
  sources of the edges that end there, divides each row of sums by the number of those edges taken as at least one
  (the neighbourhood mean), and applies a dense stage: out[r, c] = max (mean[r,·]·Wl[·,c] + h[r,·]·Ws[·,c] + bl[c] + bs[c]) 0.

  One program runs every dense stage as a kernel over ten blocks of 5000 rows and forms the mean by multiplying the
  sums with the reciprocal 1 / max (count, 1) it computed once; it adds the four summands as ((a + b) + bl) + bs.  The
  other divides the sums by max (count, 1) and adds ((a + bl) + b) + bs.  On the extended reals:
  * a block of rows of the dense stage is the dense stage of those rows, so the ten blocks of a kernel tile the
    whole-array stage (Proof/KernelBody.lean, Proof/KernelRegion0.lean … 2.lean);
  * x · (1 / y) = x / y whenever y is not zero, infinite x and y included, and max (count, 1) is never zero, so the two
    means agree entry by entry whatever the sums are (Proof/SageSpec.lean);
  * addition is commutative and associative, so the two groupings agree (Proof/SageAlgebra.lean);
  * a change of float format is the identity, and a matrix product into a zero accumulator and a host contraction
    are the same sum over the 64 contracted positions.
  Hence both programs return `Cert.Sage.net` of their arguments (Proof/KernelHost.lean with Proof/KernelRun.lean for
  the kernel program, Proof/RefValue.lean for the other).  No step needs the inputs to be finite.  The idealization
  rewrote nothing, so `preserves` has nothing to state; the three frames are the programs' runs with the results
  dropped.
-/
import proofs.«156512_j56410100465947_1_alg».proof.Defs
import proofs.«156512_j56410100465947_1_alg».proof.Proof.Gen.Kernel
import proofs.«156512_j56410100465947_1_alg».proof.Proof.Gen.KernelIdeal
import proofs.«156512_j56410100465947_1_alg».proof.Proof.Gen.ReferenceIdeal
import proofs.«156512_j56410100465947_1_alg».proof.Proof.Gen.Pre_finite_inputs
import proofs.«156512_j56410100465947_1_alg».proof.Proof.Gen.ReferenceIdeal.Run
import proofs.«156512_j56410100465947_1_alg».proof.Proof.PatchedKernelFrame
import proofs.«156512_j56410100465947_1_alg».proof.Proof.PatchedKernelIdealFrame
import proofs.«156512_j56410100465947_1_alg».proof.Proof.KernelRun
import proofs.«156512_j56410100465947_1_alg».proof.Proof.KernelHost
import proofs.«156512_j56410100465947_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.GenP.frame m ρ

/-- The idealized kernel program runs and leaves its arguments as launched. -/
theorem frame_kernelIdeal : Cert.frame_KernelIdeal := fun m ρ _ => Cert.KernelIdeal.GenP.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the network of the arguments in their
    result arrays. -/
theorem algebraic : Cert.algebraic_KernelIdeal_ReferenceIdeal := by
  intro m ρ m' ρ' _ hagree
  refine ⟨_, (θ_run Cert.KernelIdeal.defs _ _).mono
    (fun r h c => ⟨(h c).1.trans (Cert.Sage.Host.kernel_value m ρ c), (h c).2⟩) (Cert.Sage.Run.run_value (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8, a9, a10, a11, a12, a13, _⟩ := hagree c
  rw [Cert.Sage.Ref.result_eq, a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
